-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  reducesTo_S_S_d : S_.ReducesTo [] S_

variable [Facts]

def fn_part1 {F : FTy → Type} [FloatOps F] (main_arg5 : FVec F S16 .f32) (main_arg6 : FVec F S_ .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S16384x3 .f32) (main_arg1 : IVec S2x524288 32) (main_arg2 : FVec F S3x16 .f32) (main_arg3 : FVec F S16 .f32) (main_arg4 : FVec F S16x16 .f32) (main_arg5 : FVec F S16 .f32) (main_arg6 : FVec F S_ .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_v13 main_v16
-- ==== Kernel.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S16384x16 : Shape := ⟨2, ![16384, 16]⟩
abbrev S1x16 : Shape := ⟨2, ![1, 16]⟩
abbrev S16384x16384 : Shape := ⟨2, ![16384, 16384]⟩
abbrev S2048x16 : Shape := ⟨2, ![2048, 16]⟩
abbrev S2048x2048 : Shape := ⟨2, ![2048, 2048]⟩

abbrev nBuf : Space → Nat
  | .hbm => 44
  | .vmem => 6
  | .smem => 0
  | _ => 0

abbrev bufTy : (tb : Table) → Fin (tcTables nBuf tb) → BufTy
  | .hbm, ⟨0, _⟩ => ⟨S16384x3, .f32⟩
  | .hbm, ⟨1, _⟩ => ⟨S2x524288, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x3, .f32⟩
  | .hbm, ⟨20, _⟩ => ⟨S_, .f32⟩
  | .hbm, ⟨21, _⟩ => ⟨S16384x3, .f32⟩
  | .hbm, ⟨22, _⟩ => ⟨S524288x1, .i32⟩
  | .hbm, ⟨23, _⟩ => ⟨S16384x3, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S16384x3, .f32⟩
  | .hbm, ⟨28, _⟩ => ⟨S16384x3, .f32⟩
  | .hbm, ⟨29, _⟩ => ⟨S16384x16, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S_, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S_, .f32⟩
  | .hbm, ⟨41, _⟩ => ⟨S16384x16, .f32⟩
  | .hbm, ⟨42, _⟩ => ⟨S16384x16, .f32⟩
  | .hbm, ⟨43, _⟩ => ⟨S16384x16384, .f32⟩
  | .local _ .vmem, ⟨0, _⟩ => ⟨S2048x16, .f32⟩
  | .local _ .vmem, ⟨1, _⟩ => ⟨S2048x16, .f32⟩
  | .local _ .vmem, ⟨2, _⟩ => ⟨S2048x16, .f32⟩
  | .local _ .vmem, ⟨3, _⟩ => ⟨S2048x16, .f32⟩
  | .local _ .vmem, ⟨4, _⟩ => ⟨S2048x2048, .f32⟩
  | .local _ .vmem, ⟨5, _⟩ => ⟨S2048x2048, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x3 : S_.BroadcastsInDim S16384x3 (![] : Fin 0 → Fin S16384x3.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  gather_S16384x3_S524288x1_S524288x3_1_0_n_n_0_1_13_wf : GatherDims.WF S16384x3 S524288x1 S524288x3 [1] [0] [] [0] [] 1 ![1, 3]
  scatter_S16384x3_S524288x1_S524288x3_1_0_0_1_wf : ScatterDims.WF S16384x3 S524288x1 S524288x3 [1] [0] [0] 1
  dot_S16384x3_S3x16_S16384x16_1_0_0_1_n_n_wf : DotDims.WF S16384x3 S3x16 S16384x16 [1] [0] [0] [1] [] []
  dot_S16384x16_S16x16_S16384x16_1_0_0_1_n_n_wf : DotDims.WF S16384x16 S16x16 S16384x16 [1] [0] [0] [1] [] []
  dot_S2048x16_S2048x16_S2048x2048_1_1_0_0_n_n_wf : DotDims.WF S2048x16 S2048x16 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S16384x16.size a
  hwx0_0 : ∀ i : grid0.Coords, EltTy.bits .f32 = 32 ∨ (Rect.block (s := S16384x16) S2048x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S16384x16.size a
  hwx0_1 : ∀ i : grid0.Coords, EltTy.bits .f32 = 32 ∨ (Rect.block (s := S16384x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

def gather_S16384x3_S524288x1_S524288x3_1_0_n_n_0_1_13 : GatherDims S16384x3 S524288x1 S524288x3 where
  offsetDims := [1]
  collapsedSliceDims := [0]
  operandBatchingDims := []
  startIndicesBatchingDims := []
  startIndexMap := [0]
  indexVectorDim := 1
  sliceSizes := ![1, 3]
  wf := gather_S16384x3_S524288x1_S524288x3_1_0_n_n_0_1_13_wf
def scatter_S16384x3_S524288x1_S524288x3_1_0_0_1 : ScatterDims S16384x3 S524288x1 S524288x3 where
  updateWindowDims := [1]
  insertedWindowDims := [0]
  scatterDimsToOperandDims := [0]
  indexVectorDim := 1
  wf := scatter_S16384x3_S524288x1_S524288x3_1_0_0_1_wf
def dot_S16384x3_S3x16_S16384x16_1_0_0_1_n_n : DotDims S16384x3 S3x16 S16384x16 where
  lhsContracting := [1]
  rhsContracting := [0]
  lhsNonContracting := [0]
  rhsNonContracting := [1]
  lhsBatch := []
  rhsBatch := []
  wf := dot_S16384x3_S3x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S2048x16_S2048x16_S2048x2048_1_1_0_0_n_n : DotDims S2048x16 S2048x16 S2048x2048 where
  lhsContracting := [1]
  rhsContracting := [1]
  lhsNonContracting := [0]
  rhsNonContracting := [0]
  lhsBatch := []
  rhsBatch := []
  wf := dot_S2048x16_S2048x16_S2048x2048_1_1_0_0_n_n_wf

abbrev win0_0 : Pipeline.Window sig grid0 :=
  Pipeline.Window.ofSpec (Memref.whole main_v27) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3 : Shape := ⟨2, ![16384, 3]⟩
abbrev S2x524288 : Shape := ⟨2, ![2, 524288]⟩
abbrev S3x16 : Shape := ⟨2, ![3, 16]⟩
abbrev S16 : Shape := ⟨1, ![16]⟩
abbrev S16x16 : Shape := ⟨2, ![16, 16]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S524288x3 : Shape := ⟨2, ![524288, 3]⟩
abbrev S16384x16 : Shape := ⟨2, ![16384, 16]⟩
abbrev S1x16 : Shape := ⟨2, ![1, 16]⟩
abbrev S16x16384 : Shape := ⟨2, ![16, 16384]⟩
abbrev S16384x16384 : Shape := ⟨2, ![16384, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S2x524288, .i32⟩
  | .hbm, ⟨2, _⟩ => ⟨S3x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S_, .f32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .i32⟩
  | .hbm, ⟨12, _⟩ => ⟨S524288, .i32⟩
  | .hbm, ⟨13, _⟩ => ⟨S524288, .i1⟩
  | .hbm, ⟨14, _⟩ => ⟨S_, .i32⟩
  | .hbm, ⟨15, _⟩ => ⟨S524288, .i32⟩
  | .hbm, ⟨16, _⟩ => ⟨S524288, .i32⟩
  | .hbm, ⟨17, _⟩ => ⟨S524288, .i32⟩
  | .hbm, ⟨18, _⟩ => ⟨S524288x1, .i32⟩
  | .hbm, ⟨19, _⟩ => ⟨S524288x3, .f32⟩
  | .hbm, ⟨20, _⟩ => ⟨S_, .f32⟩
  | .hbm, ⟨21, _⟩ => ⟨S16384x3, .f32⟩
  | .hbm, ⟨22, _⟩ => ⟨S524288x1, .i32⟩
  | .hbm, ⟨23, _⟩ => ⟨S16384x3, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S16384x3, .f32⟩
  | .hbm, ⟨28, _⟩ => ⟨S16384x3, .f32⟩
  | .hbm, ⟨29, _⟩ => ⟨S16384x16, .f32⟩
  | .hbm, ⟨30, _⟩ => ⟨S1x16, .f32⟩
  | .hbm, ⟨31, _⟩ => ⟨S16384x16, .f32⟩
  | .hbm, ⟨32, _⟩ => ⟨S16384x16, .f32⟩
  | .hbm, ⟨33, _⟩ => ⟨S_, .f32⟩
  | .hbm, ⟨34, _⟩ => ⟨S16384x16, .f32⟩
  | .hbm, ⟨35, _⟩ => ⟨S16384x16, .f32⟩
  | .hbm, ⟨36, _⟩ => ⟨S16384x16, .f32⟩
  | .hbm, ⟨37, _⟩ => ⟨S1x16, .f32⟩
  | .hbm, ⟨38, _⟩ => ⟨S16384x16, .f32⟩
  | .hbm, ⟨39, _⟩ => ⟨S16384x16, .f32⟩
  | .hbm, ⟨40, _⟩ => ⟨S_, .f32⟩
  | .hbm, ⟨41, _⟩ => ⟨S16384x16, .f32⟩
  | .hbm, ⟨42, _⟩ => ⟨S16384x16, .f32⟩
  | .hbm, ⟨43, _⟩ => ⟨S16x16384, .f32⟩
  | .hbm, ⟨44, _⟩ => ⟨S16384x16384, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  bcast_S_S16384x3 : S_.BroadcastsInDim S16384x3 (![] : Fin 0 → Fin S16384x3.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  transposes_S16384x16_S16x16384_1_0 : S16384x16.Transposes [1, 0] S16x16384
  gather_S16384x3_S524288x1_S524288x3_1_0_n_n_0_1_13_wf : GatherDims.WF S16384x3 S524288x1 S524288x3 [1] [0] [] [0] [] 1 ![1, 3]
  scatter_S16384x3_S524288x1_S524288x3_1_0_0_1_wf : ScatterDims.WF S16384x3 S524288x1 S524288x3 [1] [0] [0] 1
  dot_S16384x3_S3x16_S16384x16_1_0_0_1_n_n_wf : DotDims.WF S16384x3 S3x16 S16384x16 [1] [0] [0] [1] [] []
  dot_S16384x16_S16x16_S16384x16_1_0_0_1_n_n_wf : DotDims.WF S16384x16 S16x16 S16384x16 [1] [0] [0] [1] [] []
  dot_S16384x16_S16x16384_S16384x16384_1_0_0_1_n_n_wf : DotDims.WF S16384x16 S16x16384 S16384x16384 [1] [0] [0] [1] [] []

variable [Facts₀]

def gather_S16384x3_S524288x1_S524288x3_1_0_n_n_0_1_13 : GatherDims S16384x3 S524288x1 S524288x3 where
  offsetDims := [1]
  collapsedSliceDims := [0]
  operandBatchingDims := []
  startIndicesBatchingDims := []
  startIndexMap := [0]
  indexVectorDim := 1
  sliceSizes := ![1, 3]
  wf := gather_S16384x3_S524288x1_S524288x3_1_0_n_n_0_1_13_wf
def scatter_S16384x3_S524288x1_S524288x3_1_0_0_1 : ScatterDims S16384x3 S524288x1 S524288x3 where
  updateWindowDims := [1]
  insertedWindowDims := [0]
  scatterDimsToOperandDims := [0]
  indexVectorDim := 1
  wf := scatter_S16384x3_S524288x1_S524288x3_1_0_0_1_wf
def dot_S16384x3_S3x16_S16384x16_1_0_0_1_n_n : DotDims S16384x3 S3x16 S16384x16 where
  lhsContracting := [1]
  rhsContracting := [0]
  lhsNonContracting := [0]
  rhsNonContracting := [1]
  lhsBatch := []
  rhsBatch := []
  wf := dot_S16384x3_S3x16_S16384x16_1_0_0_1_n_n_wf
def dot_S16384x16_S16x16_S16384x16_1_0_0_1_n_n : DotDims S16384x16 S16x16 S16384x16 where
  lhsContracting := [1]
  rhsContracting := [0]
  lhsNonContracting := [0]
  rhsNonContracting := [1]
  lhsBatch := []
  rhsBatch := []
  wf := dot_S16384x16_S16x16_S16384x16_1_0_0_1_n_n_wf
def dot_S16384x16_S16x16384_S16384x16384_1_0_0_1_n_n : DotDims S16384x16 S16x16384 S16384x16384 where
  lhsContracting := [1]
  rhsContracting := [0]
  lhsNonContracting := [0]
  rhsNonContracting := [1]
  lhsBatch := []
  rhsBatch := []
  wf := dot_S16384x16_S16x16384_S16384x16384_1_0_0_1_n_n_wf

class Facts : Prop extends Facts₀ where

variable [Facts]
-- ==== Proof.LibSharedFrame.lean ====
/-
  A frame run for a pipelined kernel whose input windows may read ONE array through several
  windows (the kernel is handed the same operand twice).

  The launch hands the region each distinct buffer behind the windows' arrays whole, at the full
  share. When two input windows sit on one buffer that points-to has to be dealt between them, each
  window holding the buffer at a share of its own; how it is dealt is the caller's to say
  (`hsplit`). Everything else is the plain frame run: the kernel keeps nothing between grid points
  beyond the core's scoped buffers that are no staging buffer (`hΦ`), owes nothing, and every
  unscoped buffer that is no window's array bypasses the region and is read back at the end as the
  region found it. The conclusion is the library's `FramePost`: every window's array at
  `Dat.arrAt w N`, every bypassing buffer at its region-entry contents.

  `split_two`: one buffer held whole at the full share is the same buffer held twice, at the left
  and the right half of the full share, at the same contents.
-/
import Idealize.ShloMosaic.Lib.Pipeline.Frame

noncomputable section

namespace SharedFrame

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of a one-region kernel whose windows may share arrays. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (cfgs p).spec c (V c))
    (hX := fun c => by iintro H; isplitr; · iempintro
                       iexact H)
    (hin := fun c => by rw [hΦ]; iintro ⟨-, H⟩; iexact H)
    (hout := fun c => by rw [hΦ]; iintro H; isplitr; · iempintro
                         iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => h c)

/-- A buffer held whole at the full share is held twice, at the two halves of the full share. -/
theorem split_two (ℓ : Loc nD τ sig) (f : ℓ.ty.Contents Val) :
    (ℓ ↦{fullShare} f : sProp 𝕄) ⊢ iprop((ℓ ↦{fullShare.left} f) ∗ ℓ ↦{fullShare.right} f) :=
  (pointsTo_share (PosShare.mem_left_op_right fullShare)).1

end SharedFrame

end
-- ==== Proof.KernelFrame.lean ====
/-
  The frame of the pairwise-similarity kernel, at any float values.

  The program computes node features h : [16384, 16] on the host, then one pipelined kernel over an
  8 × 8 grid writes out[I, J] (a 2048 × 2048 block) from the row blocks I and J of h: both input
  windows read the SAME array h. The region therefore holds h twice, at the two halves of the full
  share, one half per input window; the output array is held outright.

  At grid point t the body loads the two staged row blocks, multiplies them into a zero accumulator
  and stores the product over the whole output block (the load of the output block that precedes the
  store is not used). So after the body the input buffers hold their blocks as before, and the output
  buffer holds the one store's payload of the two blocks; nothing is kept from point to point.

  The host operations before the region write only their own result buffers, so the seven argument
  arrays are found by the region as launched, bypass it, and are read back unchanged.
-/
import proofs.«162423_j90950227460159_2_alg».proof.Proof.Gen.Kernel.Launch
import proofs.«162423_j90950227460159_2_alg».proof.Proof.Gen.Kernel.Skeleton
import proofs.«162423_j90950227460159_2_alg».proof.Proof.Gen.Kernel.Points
import proofs.«162423_j90950227460159_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the four stretches of
    host operations (the feature computation up to the first ReLU's call, that call, the second
    layer, its ReLU's call). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is those four stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes an argument array: each is found as launched. -/
theorem V_arg (c : Dev nD) (b : Ref sig .tc)
    (hb : b = main_arg0 ∨ b = main_arg1 ∨ b = main_arg2 ∨ b = main_arg3 ∨ b = main_arg4 ∨ b = main_arg5 ∨ b = main_arg6) :
    V m c b = m ((c : Thread nD τ).loc b) := by
  rcases hb with rfl | rfl | rfl | rfl | rfl | rfl | rfl <;>
  exact StableHlo.after_of_forall_not_mem (b := Proc.devRef .tc _) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The whole row block and the whole output block, as the body's accesses name them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

/-- The output buffer after the body: its one store, of the product of the two row blocks, over the
    whole block. -/
def outBlock (x0 x1 : Vec F S2048x16 .f32) : Vec F S2048x2048 .f32 :=
  View.canon [⟨rOut, k0_pay1 (View.ld x0 rIn) (View.ld x1 rIn)⟩]

/-- That store covers the block. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs — the row blocks' at read contents `x0`, `x1`, the output's at
    anything — returns the row blocks' as they were and the output's at `outBlock x0 x1`. -/
theorem sound_kernel (c : Dev nD) (E : Set ℕ) (i : grid0.Coords)
    (arg2 : Memref sig .tc .vmem S2048x16 .f32) (harg2 : arg2.IsWhole) (arg3 : Memref sig .tc .vmem S2048x16 .f32) (harg3 : arg3.IsWhole)
    (arg4 : Memref sig .tc .vmem S2048x2048 .f32) (harg4 : arg4.IsWhole)
    (x0 x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
              ∗ owns (c : Thread nD τ) arg4 fullShare (outBlock x0 x1)) -∗ K ⟨⟩))
      ⊢ wp frame (wpE (defs₀ (F := F)) Variants.none c none) E (cc0__pairwise_kernel i arg2 harg2 arg3 harg3 arg4 harg4) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each row-block
    buffer at its block and the output buffer at `outBlock` of the two blocks; between points only
    the scoped buffers that are no staging buffer; nothing owed; the shared array held at the left
    half by the first window and at the right half by the second. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

/-- A row-block buffer holds its window's block at every point, fetched there or not: where the
    pipeline does not fetch, the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row-block buffers hold their blocks, so `sound_kernel` applies; the
    invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array dealt between the two windows that read it -/

/-- The two distinct buffers behind the three windows' arrays, each whole, are the three windows'
    arrays: the feature array at its two halves for the two row-block windows, the result array
    outright for the output window. -/
theorem arrays_of_bufs (c : Dev nD) :
    (Pipeline.arrBufs spec0 c (V m c) : sProp 𝕄) ⊢ (dats m 0 c).arrays ((dats m 0 c).arrAt · 0) := by
  have himg : Finset.univ.image (Pipeline.arrRef spec0) = {main_v27, main_v28} := by decide
  unfold Pipeline.arrBufs Dat.arrays
  rw [himg, bigSep_insert (by decide), bigSep_singleton, bigSep_W0]
  rw [(arr_whole0 0).set_eq_univ, (arr_whole0 2).set_eq_univ]
  exact (_root_.Idealize.SL.BI.sep_mono (SharedFrame.split_two ((c : Thread nD τ).loc main_v27) (V m c main_v27)) (BI.Entails.refl _)).trans
    _root_.Idealize.SL.BI.sep_assoc

/-! ## The run and the frame -/

set_option backward.isDefEq.respectTransparency.types false in
/-- Every weakly fair execution terminates; every array of the pipeline ends at what the library
    computes from the proof data, every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_of_bufs m) (hΦ := fun _ _ => rfl)

/-- The argument arrays are unscoped buffers that are no window's array: a final state of the run
    holds them as the region found them, which is as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have kept : ∀ b : Ref sig .tc, (b = main_arg0 ∨ b = main_arg1 ∨ b = main_arg2 ∨ b = main_arg3 ∨ b = main_arg4 ∨ b = main_arg5 ∨ b = main_arg6) →
      b.isScoped = false → (∀ w, (spec0 w).arr.view.ref ≠ b) →
      r.2.mem ((c.tc : Thread nD τ).loc b) = m ((c.tc : Thread nD τ).loc b) := fun b hb hs ha =>
    ((h c).2 b (Pipeline.mem_restRefs_of b hs ha)).trans (V_arg m c b hb)
  ⟨kept main_arg0 (by simp) (by decide) (by decide), kept main_arg1 (by simp) (by decide) (by decide),
   kept main_arg2 (by simp) (by decide) (by decide), kept main_arg3 (by simp) (by decide) (by decide),
   kept main_arg4 (by simp) (by decide) (by decide), kept main_arg5 (by simp) (by decide) (by decide),
   kept main_arg6 (by simp) (by decide) (by decide)⟩

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.Kernel.Frame

end
-- ==== Proof.KernelIdealFrame.lean ====
/-
  The frame of the pairwise-similarity kernel, at any float values.

  The program computes node features h : [16384, 16] on the host, then one pipelined kernel over an
  8 × 8 grid writes out[I, J] (a 2048 × 2048 block) from the row blocks I and J of h: both input
  windows read the SAME array h. The region therefore holds h twice, at the two halves of the full
  share, one half per input window; the output array is held outright.

  At grid point t the body loads the two staged row blocks, multiplies them into a zero accumulator
  and stores the product over the whole output block (the load of the output block that precedes the
  store is not used). So after the body the input buffers hold their blocks as before, and the output
  buffer holds the one store's payload of the two blocks; nothing is kept from point to point.

  The host operations before the region write only their own result buffers, so the seven argument
  arrays are found by the region as launched, bypass it, and are read back unchanged.
-/
import proofs.«162423_j90950227460159_2_alg».proof.Proof.Gen.KernelIdeal.Launch
import proofs.«162423_j90950227460159_2_alg».proof.Proof.Gen.KernelIdeal.Skeleton
import proofs.«162423_j90950227460159_2_alg».proof.Proof.Gen.KernelIdeal.Points
import proofs.«162423_j90950227460159_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch contents after the four stretches of
    host operations (the feature computation up to the first ReLU's call, that call, the second
    layer, its ReLU's call). -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

/-- The program is those four stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation writes an argument array: each is found as launched. -/
theorem V_arg (c : Dev nD) (b : Ref sig .tc)
    (hb : b = main_arg0 ∨ b = main_arg1 ∨ b = main_arg2 ∨ b = main_arg3 ∨ b = main_arg4 ∨ b = main_arg5 ∨ b = main_arg6) :
    V m c b = m ((c : Thread nD τ).loc b) := by
  rcases hb with rfl | rfl | rfl | rfl | rfl | rfl | rfl <;>
  exact StableHlo.after_of_forall_not_mem (b := Proc.devRef .tc _) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

/-- The whole row block and the whole output block, as the body's accesses name them. -/
abbrev rIn : Rect S2048x16 := Rect.unit (s := S2048x16) ![0, 0] S2048x16.size inb_S2048x16_S2048x16_0_0
abbrev rOut : Rect S2048x2048 := Rect.unit (s := S2048x2048) ![0, 0] S2048x2048.size inb_S2048x2048_S2048x2048_0_0

/-- The output buffer after the body: its one store, of the product of the two row blocks, over the
    whole block. -/
def outBlock (x0 x1 : Vec F S2048x16 .f32) : Vec F S2048x2048 .f32 :=
  View.canon [⟨rOut, k0_pay1 (View.ld x0 rIn) (View.ld x1 rIn)⟩]

/-- That store covers the block. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The body on whole staging memrefs — the row blocks' at read contents `x0`, `x1`, the output's at
    anything — returns the row blocks' as they were and the output's at `outBlock x0 x1`. -/
theorem sound_kernel (c : Dev nD) (E : Set ℕ) (i : grid0.Coords)
    (arg2 : Memref sig .tc .vmem S2048x16 .f32) (harg2 : arg2.IsWhole) (arg3 : Memref sig .tc .vmem S2048x16 .f32) (harg3 : arg3.IsWhole)
    (arg4 : Memref sig .tc .vmem S2048x2048 .f32) (harg4 : arg4.IsWhole)
    (x0 x1 : Vec F S2048x16 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
              ∗ owns (c : Thread nD τ) arg4 fullShare (outBlock x0 x1)) -∗ K ⟨⟩))
      ⊢ wp frame (wpE (defs₀ (F := F)) Variants.none c none) E (cc0__pairwise_kernel i arg2 harg2 arg3 harg3 arg4 harg4) K := by
  simp only [cc0__pairwise_kernel_eq_skeleton]; unfold cc0__pairwise_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each row-block
    buffer at its block and the output buffer at `outBlock` of the two blocks; between points only
    the scoped buffers that are no staging buffer; nothing owed; the shared array held at the left
    half by the first window and at the right half by the second. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outBlock (iblk m c 0 t) (iblk m c 1 t) := by dsimp only [dats]

/-- A row-block buffer holds its window's block at every point, fetched there or not: where the
    pipeline does not fetch, the block index has not moved and the body left the block in place. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the row-block buffers hold their blocks, so `sound_kernel` applies; the
    invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The shared array dealt between the two windows that read it -/

/-- The two distinct buffers behind the three windows' arrays, each whole, are the three windows'
    arrays: the feature array at its two halves for the two row-block windows, the result array
    outright for the output window. -/
theorem arrays_of_bufs (c : Dev nD) :
    (Pipeline.arrBufs spec0 c (V m c) : sProp 𝕄) ⊢ (dats m 0 c).arrays ((dats m 0 c).arrAt · 0) := by
  have himg : Finset.univ.image (Pipeline.arrRef spec0) = {main_v27, main_v28} := by decide
  unfold Pipeline.arrBufs Dat.arrays
  rw [himg, bigSep_insert (by decide), bigSep_singleton, bigSep_W0]
  rw [(arr_whole0 0).set_eq_univ, (arr_whole0 2).set_eq_univ]
  exact (_root_.Idealize.SL.BI.sep_mono (SharedFrame.split_two ((c : Thread nD τ).loc main_v27) (V m c main_v27)) (BI.Entails.refl _)).trans
    _root_.Idealize.SL.BI.sep_assoc

/-! ## The run and the frame -/

set_option backward.isDefEq.respectTransparency.types false in
/-- Every weakly fair execution terminates; every array of the pipeline ends at what the library
    computes from the proof data, every other unscoped buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := arrays_of_bufs m) (hΦ := fun _ _ => rfl)

/-- The argument arrays are unscoped buffers that are no window's array: a final state of the run
    holds them as the region found them, which is as launched. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have kept : ∀ b : Ref sig .tc, (b = main_arg0 ∨ b = main_arg1 ∨ b = main_arg2 ∨ b = main_arg3 ∨ b = main_arg4 ∨ b = main_arg5 ∨ b = main_arg6) →
      b.isScoped = false → (∀ w, (spec0 w).arr.view.ref ≠ b) →
      r.2.mem ((c.tc : Thread nD τ).loc b) = m ((c.tc : Thread nD τ).loc b) := fun b hb hs ha =>
    ((h c).2 b (Pipeline.mem_restRefs_of b hs ha)).trans (V_arg m c b hb)
  ⟨kept main_arg0 (by simp) (by decide) (by decide), kept main_arg1 (by simp) (by decide) (by decide),
   kept main_arg2 (by simp) (by decide) (by decide), kept main_arg3 (by simp) (by decide) (by decide),
   kept main_arg4 (by simp) (by decide) (by decide), kept main_arg5 (by simp) (by decide) (by decide),
   kept main_arg6 (by simp) (by decide) (by decide)⟩

/-- The frame: the program runs to the end and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (run_main m ρ)

end Cert.KernelIdeal.Frame

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Gram.lean ====
/-
  The pairwise similarity of the rows of a feature matrix: entry (i, j) of the result is the inner
  product of rows i and j, the sum over the 16 features k of h[i, k] · h[j, k].
-/
import Idealize.ShloMosaic.PureOps.Ideal
import Idealize.ShloMosaic.Lib.ValueIdx

noncomputable section

namespace Pairwise

open Idealize.ShloMosaic Idealize.ShloMosaic.ValueIdx

/-- out[i, j] = ∑ k, h[i, k] · h[j, k], over the extended reals. -/
def gram (h : (⟨2, ![16384, 16]⟩ : Shape).Idx → EReal) : (⟨2, ![16384, 16384]⟩ : Shape).Idx → EReal :=
  fun i => ∑ k : Fin 16, h (ix2 (n0 := 16384) (n1 := 16) (i 0) k) * h (ix2 (n0 := 16384) (n1 := 16) (i 1) k)

end Pairwise

end
-- ==== Proof.KernelIdealValue.lean ====
/-
  What the idealized kernel's result array holds after the run: the pairwise similarity of the rows
  of the feature matrix h the host computed before the region.

  At grid point t = (I, J) the two staged row blocks are rows 2048·I … and rows 2048·J … of h (all
  16 columns), and the body stores their product into a zero accumulator: entry (p, q) of the
  stored block is ∑ k, h[2048·I + p, k] · h[2048·J + q, k] over the extended reals (a change of float
  format is the identity there). The block written back at t is block (I, J) of the result, whose
  entry (p, q) sits at (2048·I + p, 2048·J + q): so every point writes back its block of ONE function
  of h, the Gram matrix of its rows, and the 64 blocks tile the result.
-/
import proofs.«162423_j90950227460159_2_alg».proof.Proof.KernelIdealFrame
import proofs.«162423_j90950227460159_2_alg».proof.Proof.LibContract
import proofs.«162423_j90950227460159_2_alg».proof.Proof.Gram
import Idealize.ShloMosaic.Lib.Pipeline.Value
import Idealize.ShloMosaic.Lib.ValueIdx
import Idealize.ShloMosaic.PureOps.Ideal.Laws

set_option maxRecDepth 16384

noncomputable section

namespace Cert.KernelIdeal.Similarity

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The body's product at an entry -/

/-- The left operand is read at the output's row and the contracted coordinate, -/
theorem lhs_row (j : S2048x2048.Idx) (q : dot_S2048x16_S2048x16_S2048x2048_1_1_0_0_n_n.contr.Idx) : (dot_S2048x16_S2048x16_S2048x2048_1_1_0_0_n_n.lhsIdx j q 0).val = (j 0).val := by
  unfold DotDims.lhsIdx
  rw [dif_neg (show ¬(0 : Fin S2048x16.rank) ∈ dot_S2048x16_S2048x16_S2048x2048_1_1_0_0_n_n.lhsBatch by decide), dif_pos (show (0 : Fin S2048x16.rank) ∈ dot_S2048x16_S2048x16_S2048x2048_1_1_0_0_n_n.lhsNonContracting by decide)]
  rfl
theorem lhs_col (j : S2048x2048.Idx) (q : dot_S2048x16_S2048x16_S2048x2048_1_1_0_0_n_n.contr.Idx) : (dot_S2048x16_S2048x16_S2048x2048_1_1_0_0_n_n.lhsIdx j q 1).val = (q ⟨0, by decide⟩).val :=
  dot_S2048x16_S2048x16_S2048x2048_1_1_0_0_n_n.lhsIdx_val_of_single rfl j q
/-- the right operand at the output's COLUMN as its row, and the contracted coordinate. -/
theorem rhs_row (j : S2048x2048.Idx) (q : dot_S2048x16_S2048x16_S2048x2048_1_1_0_0_n_n.contr.Idx) : (dot_S2048x16_S2048x16_S2048x2048_1_1_0_0_n_n.rhsIdx j q 0).val = (j 1).val := by
  unfold DotDims.rhsIdx
  rw [dif_neg (show ¬(0 : Fin S2048x16.rank) ∈ dot_S2048x16_S2048x16_S2048x2048_1_1_0_0_n_n.rhsBatch by decide), dif_pos (show (0 : Fin S2048x16.rank) ∈ dot_S2048x16_S2048x16_S2048x2048_1_1_0_0_n_n.rhsNonContracting by decide)]
  rfl
theorem rhs_col (j : S2048x2048.Idx) (q : dot_S2048x16_S2048x16_S2048x2048_1_1_0_0_n_n.contr.Idx) : (dot_S2048x16_S2048x16_S2048x2048_1_1_0_0_n_n.rhsIdx j q 1).val = (q ⟨0, by decide⟩).val :=
  dot_S2048x16_S2048x16_S2048x2048_1_1_0_0_n_n.rhsIdx_val_of_single rfl j q

/-- Entry (p, q) of the stored block: the inner product of row p of the first block and row q of the second. -/
theorem payload_apply (x0 x1 : Vec Ideal S2048x16 .f32) (p q : Fin 2048) :
    k0_pay1 (F := Ideal) x0 x1 (ix2 p q) = ∑ k : Fin 16, x0 (ix2 p k) * x1 (ix2 q k) := by
  unfold k0_pay1
  refine ContractSingle.matmul_zero_single dot_S2048x16_S2048x16_S2048x2048_1_1_0_0_n_n none 16 rfl rfl _ _ (ix2 p q) _ _ (fun k => ?_) (fun k => ?_)
  · have hk := contrEquiv1_symm_val dot_S2048x16_S2048x16_S2048x2048_1_1_0_0_n_n 16 rfl rfl k
    rw [truncf_apply, shapeCast_self]
    exact congrArg x0 (funext fun a => Fin.ext (by
      match a with
      | ⟨0, _⟩ => exact lhs_row _ _
      | ⟨1, _⟩ => exact (lhs_col _ _).trans hk))
  · have hk := contrEquiv1_symm_val dot_S2048x16_S2048x16_S2048x2048_1_1_0_0_n_n 16 rfl rfl k
    rw [truncf_apply, shapeCast_self]
    exact congrArg x1 (funext fun a => Fin.ext (by
      match a with
      | ⟨0, _⟩ => exact rhs_row _ _
      | ⟨1, _⟩ => exact (rhs_col _ _).trans hk))

/-! ## From the blocks to the array -/

/-- The index maps over the grid: the first window's row block is the output's row block, the
    second window's is the output's COLUMN block, both take all 16 columns, and the output's block
    indices stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block of the result is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- What point `t` writes back is block `t` of the Gram matrix of h's rows. -/
theorem flushed_eq (c : Dev nD) (t : Fin cfg0.N) :
    (dats m 0 c).flushed 2 t = ((cfg0.win 2).blk t).view.read (Elt Ideal) (Pairwise.gram (V m c main_v27)) := by
  show (cfg0.win 2).cut (grid0.coords t) ((dats m 0 c).after 2 t) = _
  rw [after_2]
  unfold outBlock
  rw [View.canon_unit_zero hz]
  simp only [View.ld_unit_zero (S := S2048x16) hz]
  obtain ⟨e0, e1, e2, e3, e4, e5⟩ := idx_facts t
  funext j
  obtain ⟨p, q, rfl⟩ : ∃ (p q : Fin 2048), j = ix2 p q := ⟨j 0, j 1, eq_ix2 j⟩
  refine (payload_apply _ _ p q).trans ?_
  show _ = Pairwise.gram (V m c main_v27) (((cfg0.win 2).blk t).view.emb (ix2 p q))
  unfold Pairwise.gram
  refine Finset.sum_congr rfl fun k _ => ?_
  have h0 : iblk m c 0 t (ix2 p k) = V m c main_v27 (ix2 (n0 := 16384) (n1 := 16) ((((cfg0.win 2).blk t).view.emb (ix2 p q)) 0) k) := by
    show V m c main_v27 (((cfg0.win 0).blk t).view.emb (ix2 p k)) = _
    refine congrArg _ (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 16 + 1 * k.val = k.val; omega
  have h1 : iblk m c 1 t (ix2 q k) = V m c main_v27 (ix2 (n0 := 16384) (n1 := 16) ((((cfg0.win 2).blk t).view.emb (ix2 p q)) 1) k) := by
    show V m c main_v27 (((cfg0.win 1).blk t).view.emb (ix2 q k)) = _
    refine congrArg _ (funext fun a => Fin.ext ?_)
    match a with
    | ⟨0, _⟩ => show win0_1.index t (0 : Fin 2) * 2048 + 1 * q.val = win0_2.index t (1 : Fin 2) * 2048 + 1 * q.val; omega
    | ⟨1, _⟩ => show win0_1.index t (1 : Fin 2) * 16 + 1 * k.val = k.val; omega
  exact congrArg₂ (· * ·) h0 h1

/-- An index of the result is in point `t`'s block iff each coordinate is in the block's range. -/
theorem mem_blk (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v28).slice (win0_2.rect t)).set ↔ _
  rw [View.set_slice_whole, Rect.mem_set_unit]
  exact Iff.rfl

/-- Entry (r, s) is written back by the point of block (r / 2048, s / 2048). -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run is the Gram matrix of the rows of h. -/
theorem final (c : Dev nD) : (dats m 0 c).arrAt 2 cfg0.N = Pairwise.gram (V m c main_v27) :=
  (dats m 0 c).arrAt_eq_of_cover 2 _ (fun t _ => flushed_eq m c t) cover

/-! ## The run, read -/

/-- The idealized kernel runs to the end with its result at the Gram matrix of the host's features
    and its arguments as launched. -/
theorem run : θ_run defs (onTc (τ := τ) (main (F := Ideal))) ⟨m, fun _ => 0, ρ⟩ fun r => ∀ c : Dev nD,
      r.2.mem ((c.tc : Thread nD τ).loc main_v28) = Pairwise.gram (V m c main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 2).trans (final m c), args_kept m r h c⟩) (run_main m ρ)

end Cert.KernelIdeal.Similarity

end
-- ==== Proof.ReferenceGram.lean ====
/-
  The reference's result is the Gram matrix of the rows of its feature matrix h: it multiplies h by
  its transpose, so entry (i, j) is ∑ k, h[i, k] · hᵀ[k, j], and hᵀ[k, j] is h[j, k].
-/
import proofs.«162423_j90950227460159_2_alg».proof.Proof.Gen.ReferenceIdeal.Read
import proofs.«162423_j90950227460159_2_alg».proof.Proof.Gram

noncomputable section

namespace Cert.ReferenceIdeal.Similarity

open Cert.ReferenceIdeal Cert.ReferenceIdeal.Read Idealize.ShloMosaic Idealize.ShloMosaic.ValueIdx

/-- The last stage (the product with the transpose) is the Gram matrix of the stage before the transpose. -/
theorem result_eq (x0 : (⟨S16384x3, .f32⟩ : BufTy).Contents (Elt Ideal)) (x1 : (⟨S2x524288, .i32⟩ : BufTy).Contents (Elt Ideal)) (x2 : (⟨S3x16, .f32⟩ : BufTy).Contents (Elt Ideal)) (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S_, .f32⟩ : BufTy).Contents (Elt Ideal)) :
    val_main_v29 (F := Ideal) x0 x1 x2 x3 x4 x5 x6 = Pairwise.gram (val_main_v27 (F := Ideal) x0 x1 x2 x3 x4 x5 x6) := by
  funext i
  rw [val_main_v29_apply]
  unfold Pairwise.gram
  refine Finset.sum_congr rfl fun k _ => ?_
  rw [val_main_v28_apply]
  exact congrArg₂ (· * ·)
    (congrArg _ (funext fun a => Fin.ext (by match a with | ⟨0, _⟩ => rfl | ⟨1, _⟩ => rfl)))
    (congrArg _ (funext fun a => Fin.ext (by match a with | ⟨0, _⟩ => rfl | ⟨1, _⟩ => rfl)))

end Cert.ReferenceIdeal.Similarity

end
-- ==== Proof.Features.lean ====
/-
  The host computes the same feature matrix in both programs: the kernel's host operations before
  its region are, operation for operation, the reference's operations up to its transpose (the
  neighbour sum by gather and scatter-add, the scaled self term, two linear layers each followed by
  a maximum with zero). So the array the kernel's two row-block windows read is the reference's
  feature stage of the same argument arrays.
-/
import proofs.«162423_j90950227460159_2_alg».proof.Proof.KernelIdealFrame
import proofs.«162423_j90950227460159_2_alg».proof.Proof.Gen.ReferenceIdeal.Read
import Idealize.ShloMosaic.Lib.StableHlo.Run

set_option maxRecDepth 16384

noncomputable section

namespace Cert.Proof.Features

open Idealize.ShloMosaic Idealize.ShloMosaic.TcCoe Idealize.SL.Sem Idealize.ShloMosaic.StableHlo

set_option maxHeartbeats 4000000 in
/-- What the region finds in the feature array is the reference's feature stage of the launch contents of the arguments. -/
theorem features_eq (m : (ℓ : Loc Cert.KernelIdeal.nD Cert.KernelIdeal.τ Cert.KernelIdeal.sig) → Buf (Elt Ideal) ℓ) (c : Dev Cert.KernelIdeal.nD) :
    (Cert.KernelIdeal.Frame.V m c Cert.KernelIdeal.main_v27 : Cert.KernelIdeal.S16384x16.Idx → EReal)
      = Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  dsimp only [Cert.KernelIdeal.Frame.V]
  simp only [Cert.KernelIdeal.Gen.hostOps0, Cert.KernelIdeal.Gen.hostOps0_1, Cert.KernelIdeal.Gen.hostOps0_2, Cert.KernelIdeal.Gen.hostOps0_3,
    List.flatten_cons, List.flatten_nil, List.append_nil, List.cons_append, List.nil_append]
  after_results_simp <;> rfl

end Cert.Proof.Features

end
-- ==== Proof.lean ====
/-
  The certificate of the pairwise-similarity kernel against its reference.

  Both programs compute a feature matrix h : [16384, 16] on the host by the same operations of the
  same arguments (a neighbour sum over the edge list, a scaled self term, two linear layers each
  followed by a maximum with zero). The reference then multiplies h by its transpose; the kernel
  computes the same [16384, 16384] matrix block by block on an 8 × 8 grid, block (I, J) from row
  blocks I and J of h, each a matrix product into a zero accumulator. Over the extended reals both
  results are, entry by entry, ∑ k, h[i, k] · h[j, k]: the same sixteen products summed over the same
  index, so no law of arithmetic beyond that reading is used and the precondition is never opened.

  The three frames: each kernel program's by the pipeline's launch theorem for windows that share an
  array (the kernel reads h through two windows), the reference's by its run. The idealization
  rewrote nothing, so it preserves the kernel trivially.
-/
import proofs.«162423_j90950227460159_2_alg».proof.Defs
import proofs.«162423_j90950227460159_2_alg».proof.Proof.Gen.Kernel
import proofs.«162423_j90950227460159_2_alg».proof.Proof.Gen.KernelIdeal
import proofs.«162423_j90950227460159_2_alg».proof.Proof.Gen.ReferenceIdeal
import proofs.«162423_j90950227460159_2_alg».proof.Proof.Gen.Pre_finite_inputs
import proofs.«162423_j90950227460159_2_alg».proof.Proof.Gen.ReferenceIdeal.Run
import proofs.«162423_j90950227460159_2_alg».proof.Proof.KernelFrame
import proofs.«162423_j90950227460159_2_alg».proof.Proof.KernelIdealValue
import proofs.«162423_j90950227460159_2_alg».proof.Proof.ReferenceGram
import proofs.«162423_j90950227460159_2_alg».proof.Proof.Features

noncomputable section

namespace Cert.Proof

open Idealize.ShloMosaic Idealize.SL.Sem

/-- The kernel as printed runs to the end and leaves its arguments as launched. -/
theorem frame_kernel : Cert.frame_Kernel := fun m ρ _ => Cert.Kernel.Frame.frame (F := Bits) m ρ

/-- So does its idealization. -/
theorem frame_kernelIdeal : Cert.frame_KernelIdeal := fun m ρ _ => Cert.KernelIdeal.Frame.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the Gram matrix of the rows of
    the one feature matrix. -/
theorem algebraic : Cert.algebraic_KernelIdeal_ReferenceIdeal := by
  intro m ρ m' ρ' _ hagree
  refine ⟨fun c => Pairwise.gram (Cert.KernelIdeal.Frame.V m c Cert.KernelIdeal.main_v27), Cert.KernelIdeal.Similarity.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v29 m' c = Pairwise.gram (Cert.KernelIdeal.Frame.V m c Cert.KernelIdeal.main_v27)
  rw [Cert.ReferenceIdeal.Read.val_main_v29_eq, Cert.ReferenceIdeal.Similarity.result_eq, Features.features_eq,
    (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
